-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1000000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x1 : Shape := ⟨2, ![100000, 1]⟩
abbrev S10000x64 : Shape := ⟨2, ![10000, 64]⟩
abbrev S10000x1 : Shape := ⟨2, ![10000, 1]⟩
abbrev S1100000x64 : Shape := ⟨2, ![1100000, 64]⟩
abbrev S1x64 : Shape := ⟨2, ![1, 64]⟩

abbrev nBuf : Space → Nat
  | .hbm => 42
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S100000, .i32⟩
  | .hbm, ⟨5, _⟩ => ⟨S1x1000000, .i32⟩
  | .hbm, ⟨6, _⟩ => ⟨S1000000, .i32⟩
  | .hbm, ⟨7, _⟩ => ⟨S1100000, .i32⟩
  | .hbm, ⟨8, _⟩ => ⟨S1x1000000, .i32⟩
  | .hbm, ⟨9, _⟩ => ⟨S1000000, .i32⟩
  | .hbm, ⟨10, _⟩ => ⟨S1100000, .i32⟩
  | .hbm, ⟨11, _⟩ => ⟨S_, .f32⟩
  | .hbm, ⟨12, _⟩ => ⟨S1100000, .f32⟩
  | .hbm, ⟨13, _⟩ => ⟨S_, .f32⟩
  | .hbm, ⟨14, _⟩ => ⟨S100000, .f32⟩
  | .hbm, ⟨15, _⟩ => ⟨S1100000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .f32⟩
  | .hbm, ⟨27, _⟩ => ⟨S_, .i32⟩
  | .hbm, ⟨28, _⟩ => ⟨S1100000, .i32⟩
  | .hbm, ⟨29, _⟩ => ⟨S1100000, .i1⟩
  | .hbm, ⟨30, _⟩ => ⟨S_, .i32⟩
  | .hbm, ⟨31, _⟩ => ⟨S1100000, .i32⟩
  | .hbm, ⟨32, _⟩ => ⟨S1100000, .i32⟩
  | .hbm, ⟨33, _⟩ => ⟨S1100000, .i32⟩
  | .hbm, ⟨34, _⟩ => ⟨S1100000x1, .i32⟩
  | .hbm, ⟨35, _⟩ => ⟨S1100000x64, .f32⟩
  | .hbm, ⟨36, _⟩ => ⟨S_, .f32⟩
  | .hbm, ⟨37, _⟩ => ⟨S100000x64, .f32⟩
  | .hbm, ⟨38, _⟩ => ⟨S1100000x1, .i32⟩
  | .hbm, ⟨39, _⟩ => ⟨S100000x64, .f32⟩
  | .hbm, ⟨40, _⟩ => ⟨S1x64, .f32⟩
  | .hbm, ⟨41, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x1, .f32⟩
  | .local _ .vmem, ⟨4, _⟩ => ⟨S10000x1, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1100000x1_S1100000_n_0_0_1_wf : ScatterDims.WF S100000 S1100000x1 S1100000 [] [0] [0] 1
  dot_S10000x64_S64x64_S10000x64_1_0_0_1_n_n_wf : DotDims.WF S10000x64 S64x64 S10000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S100000x64, .f32⟩
  | .hbm, ⟨5, _⟩ => ⟨S100000, .i32⟩
  | .hbm, ⟨6, _⟩ => ⟨S1x1000000, .i32⟩
  | .hbm, ⟨7, _⟩ => ⟨S1000000, .i32⟩
  | .hbm, ⟨8, _⟩ => ⟨S1100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S_, .f32⟩
  | .hbm, ⟨13, _⟩ => ⟨S1100000, .f32⟩
  | .hbm, ⟨14, _⟩ => ⟨S_, .f32⟩
  | .hbm, ⟨15, _⟩ => ⟨S100000, .f32⟩
  | .hbm, ⟨16, _⟩ => ⟨S1100000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1100000, .i32⟩
  | .hbm, ⟨28, _⟩ => ⟨S1100000, .i1⟩
  | .hbm, ⟨29, _⟩ => ⟨S_, .i32⟩
  | .hbm, ⟨30, _⟩ => ⟨S1100000, .i32⟩
  | .hbm, ⟨31, _⟩ => ⟨S1100000, .i32⟩
  | .hbm, ⟨32, _⟩ => ⟨S1100000, .i32⟩
  | .hbm, ⟨33, _⟩ => ⟨S1100000x1, .i32⟩
  | .hbm, ⟨34, _⟩ => ⟨S1100000, .f32⟩
  | .hbm, ⟨35, _⟩ => ⟨S_, .i32⟩
  | .hbm, ⟨36, _⟩ => ⟨S1100000, .i32⟩
  | .hbm, ⟨37, _⟩ => ⟨S1100000, .i1⟩
  | .hbm, ⟨38, _⟩ => ⟨S_, .i32⟩
  | .hbm, ⟨39, _⟩ => ⟨S1100000, .i32⟩
  | .hbm, ⟨40, _⟩ => ⟨S1100000, .i32⟩
  | .hbm, ⟨41, _⟩ => ⟨S1100000, .i32⟩
  | .hbm, ⟨42, _⟩ => ⟨S1100000x1, .i32⟩
  | .hbm, ⟨43, _⟩ => ⟨S1100000, .f32⟩
  | .hbm, ⟨44, _⟩ => ⟨S1100000, .f32⟩
  | .hbm, ⟨45, _⟩ => ⟨S1100000x1, .f32⟩
  | .hbm, ⟨46, _⟩ => ⟨S_, .i32⟩
  | .hbm, ⟨47, _⟩ => ⟨S1100000, .i32⟩
  | .hbm, ⟨48, _⟩ => ⟨S1100000, .i1⟩
  | .hbm, ⟨49, _⟩ => ⟨S_, .i32⟩
  | .hbm, ⟨50, _⟩ => ⟨S1100000, .i32⟩
  | .hbm, ⟨51, _⟩ => ⟨S1100000, .i32⟩
  | .hbm, ⟨52, _⟩ => ⟨S1100000, .i32⟩
  | .hbm, ⟨53, _⟩ => ⟨S1100000x1, .i32⟩
  | .hbm, ⟨54, _⟩ => ⟨S1100000x64, .f32⟩
  | .hbm, ⟨55, _⟩ => ⟨S1100000x64, .f32⟩
  | .hbm, ⟨56, _⟩ => ⟨S1100000x64, .f32⟩
  | .hbm, ⟨57, _⟩ => ⟨S_, .f32⟩
  | .hbm, ⟨58, _⟩ => ⟨S100000x64, .f32⟩
  | .hbm, ⟨59, _⟩ => ⟨S1100000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

class Facts : Prop extends Facts₀ where

variable [Facts]
-- ==== Proof.ResultRun.lean ====
/-
  The idealized kernel's run with its RESULT kept: every weakly fair execution of @main ends, nothing faulting, with
  the result array (the second region's output) holding what the fold of @main's segments leaves there — the host
  stretches' operations applied in order, each region's arrays at what its write-backs leave — and the four arguments
  as launched. The frame claim forgets the result; the value claim needs it, so the launch over the same segments is
  read once more at the result's buffer.
-/
import proofs.«133588_j12635793785115_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, read at the result's buffer and at the arguments'. -/
theorem run_result : θ_run defs (onTc (τ := τ) (main (F := F))) ⟨m, fun _ => 0, ρ⟩ (fun r => ∀ c : Dev nD,
      r.2.mem ((c.tc : Thread nD τ).loc main_v28) = W6 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v28 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.ResultRun

end
-- ==== Proof.Region1.lean ====
/-
  The second region (the epilogue kernel) as ONE function of the arrays it finds.

  The grid has 10 points; point `t` takes rows `10000·t … 10000·t + 9999` of the aggregated features `a : [100000, 64]` and
  of the normaliser column `d : [100000, 1]`, the whole bias row `b : [1, 64]`, and writes back rows `10000·t …` of
  `max (a[r, c] · d[r, 0] + b[0, c], 0)`. The blocks of the 10 points tile the output, so after the region the output
  array holds that function at every index.  Stated for ANY contents `V` of the buffers at the region's entry.
-/
import proofs.«133588_j12635793785115_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Epilogue

open Cert.KernelIdeal Cert.KernelIdeal.Gen Idealize.ShloMosaic Idealize.ShloMosaic.TcCoe Idealize.SL.Sem
open Idealize.ShloMosaic.ValueIdx
open Idealize.ShloMosaic.Pipeline (Dat)

/-- Column 0 of the same row, in a one-column array of `n` rows. -/
abbrev colOf {n k : Nat} (i : (⟨2, ![n, k]⟩ : Shape).Idx) : (⟨2, ![n, 1]⟩ : Shape).Idx := fun a => match a with
  | ⟨0, _⟩ => ⟨(i 0).val, (i 0).isLt⟩
  | ⟨1, _⟩ => ⟨0, Nat.one_pos⟩
/-- Row 0 of the same column, in a one-row array of `k` columns. -/
abbrev rowOf {n k : Nat} (i : (⟨2, ![n, k]⟩ : Shape).Idx) : (⟨2, ![1, k]⟩ : Shape).Idx := fun a => match a with
  | ⟨0, _⟩ => ⟨0, Nat.one_pos⟩
  | ⟨1, _⟩ => ⟨(i 1).val, (i 1).isLt⟩

/-- Scale each row by its normaliser, add the bias row, clamp below at the zero word's value. -/
def scaleBiasClamp {n k : Nat} (a : (⟨2, ![n, k]⟩ : Shape).Idx → EReal) (d : (⟨2, ![n, 1]⟩ : Shape).Idx → EReal)
    (b : (⟨2, ![1, k]⟩ : Shape).Idx → EReal) : (⟨2, ![n, k]⟩ : Shape).Idx → EReal :=
  fun i => max (a i * d (colOf i) + b (rowOf i)) (Ideal.ofBits .f32 0x00000000#32)

theorem hz : (![0, 0] : Fin 2 → Nat) = fun _ => 0 := funext fun a => by fin_cases a <;> rfl

/-- The body's arithmetic on one block IS that function of the block's three loads. -/
theorem pay_eq (x0 : Vec Ideal S10000x64 .f32) (x1 : Vec Ideal S10000x1 .f32) (x2 : Vec Ideal S1x64 .f32) :
    k1_pay1 (F := Ideal) x0 x1 x2 = scaleBiasClamp x0 x1 x2 := by
  funext j
  unfold k1_pay1 scaleBiasClamp
  simp only [shapeCast_self]
  show max (x0 j * broadcastTo S10000x64 x1 broadcasts_S10000x1_S10000x64 j
      + broadcastTo S10000x64 x2 broadcasts_S1x64_S10000x64 j) (Ideal.ofBits .f32 0x00000000#32) = _
  rw [broadcastTo_apply x1 broadcasts_S10000x1_S10000x64 j (colOf j) (fun a => match a with
      | ⟨0, _⟩ => by show (j 0).val = if (10000 : Nat) = 1 then 0 else (j 0).val; rw [if_neg (by decide)]
      | ⟨1, _⟩ => by show (0 : Nat) = if (1 : Nat) = 1 then 0 else (j 1).val; rw [if_pos rfl]),
    broadcastTo_apply x2 broadcasts_S1x64_S10000x64 j (rowOf j) (fun a => match a with
      | ⟨0, _⟩ => by show (0 : Nat) = if (1 : Nat) = 1 then 0 else (j 0).val; rw [if_pos rfl]
      | ⟨1, _⟩ => by show (j 1).val = if (64 : Nat) = 1 then 0 else (j 1).val; rw [if_neg (by decide)])]

section
variable (V : (c : Dev nD) → (b : Ref sig .tc) → Buf (Elt Ideal) ((c : Thread nD τ).loc b))

/-- The printed index maps over the 10 points: the row-blocked windows move with the output's block, the bias row's
    block stays. -/
theorem idx_facts : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (0 : Fin 2) ≤ 9 ∧ win1_3.index t (1 : Fin 2) = 0 :=
  (by decide +kernel : ∀ t : Fin grid1.N, _)

/-- Every row block is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- Block `t` of the function of three whole arrays is the function of their blocks at `t`: a row of the output only
    reads that row of the features and of the normaliser column, and the bias row. -/
theorem block_read (A : S100000x64.Idx → EReal) (D : S100000x1.Idx → EReal) (B : S1x64.Idx → EReal) (t : Fin cfg1.N) :
    (cfg1.win 3).cut (grid1.coords t) (scaleBiasClamp (n := 10000) (k := 64)
        (((cfg1.win 0).blk t).view.read (Elt Ideal) A) (((cfg1.win 1).blk t).view.read (Elt Ideal) D)
        (((cfg1.win 2).blk t).view.read (Elt Ideal) B))
      = ((cfg1.win 3).blk t).view.read (Elt Ideal) (scaleBiasClamp (n := 100000) (k := 64) A D B) := by
  obtain ⟨e0, e1, e2, e3, e4, e5, e6, e7⟩ := idx_facts t
  funext j
  show max (A (((cfg1.win 0).blk t).view.emb j) * D (((cfg1.win 1).blk t).view.emb (colOf j))
        + B (((cfg1.win 2).blk t).view.emb (rowOf j))) (Ideal.ofBits .f32 0x00000000#32)
      = max (A (((cfg1.win 3).blk t).view.emb j) * D (colOf (((cfg1.win 3).blk t).view.emb j))
        + B (rowOf (((cfg1.win 3).blk t).view.emb j))) (Ideal.ofBits .f32 0x00000000#32)
  have h0 : ((cfg1.win 0).blk t).view.emb j = ((cfg1.win 3).blk t).view.emb j := by
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * (j 1).val = win1_3.index t (1 : Fin 2) * 64 + 1 * (j 1).val; omega
  have h1 : ((cfg1.win 1).blk t).view.emb (colOf j) = colOf (((cfg1.win 3).blk t).view.emb j) := by
    funext a; apply Fin.ext
    match a with
    | ⟨0, _⟩ => show win1_1.index t (0 : Fin 2) * 10000 + 1 * (j 0).val = win1_3.index t (0 : Fin 2) * 10000 + 1 * (j 0).val; omega
    | ⟨1, _⟩ => show win1_1.index t (1 : Fin 2) * 1 + 1 * 0 = 0; omega
  have h2 : ((cfg1.win 2).blk t).view.emb (rowOf j) = rowOf (((cfg1.win 3).blk t).view.emb j) := by
    funext a; apply Fin.ext
    match a with
    | ⟨0, _⟩ => show win1_2.index t (0 : Fin 2) * 1 + 1 * 0 = 0; omega
    | ⟨1, _⟩ => show win1_2.index t (1 : Fin 2) * 64 + 1 * (j 1).val = win1_3.index t (1 : Fin 2) * 64 + 1 * (j 1).val; omega
  rw [h0, h1, h2]

/-- What point `t` writes back is block `t` of the function of the three arrays as the region finds them. -/
theorem flushed_eq (c : Dev nD) (t : Fin cfg1.N) :
    (dat1 V c).flushed 3 t = ((cfg1.win 3).blk t).view.read (Elt Ideal)
      (scaleBiasClamp (n := 100000) (k := 64) (V c main_v26) (V c main_v15) (V c main_v27)) := by
  show (cfg1.win 3).cut (grid1.coords t) ((dat1 V c).after 3 t) = _
  rw [after1_3]
  unfold out1_3
  rw [View.canon_unit_zero hz]
  simp only [View.ld_unit_zero (S := S10000x64) hz, View.ld_unit_zero (S := S10000x1) hz, View.ld_unit_zero (S := S1x64) hz]
  rw [pay_eq (iblk1 V c 0 t) (iblk1 V c 1 t) (iblk1 V c 2 t)]
  exact block_read (V c main_v26) (V c main_v15) (V c main_v27) t

/-- An index of the output is in point `t`'s block iff each coordinate is in the block's range on its axis. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v28).slice (win1_3.rect t)).set ↔ _
  rw [View.set_slice_whole, Rect.mem_set_unit]
  exact Iff.rfl

/-- The 10 row blocks cover the output: row `r` is in the block of the point whose block index is `r / 10000`. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- THE OUTPUT ARRAY after the region. -/
theorem final (c : Dev nD) :
    (dat1 V c).arrAt 3 cfg1.N = scaleBiasClamp (n := 100000) (k := 64) (V c main_v26) (V c main_v15) (V c main_v27) :=
  (dat1 V c).arrAt_eq_of_cover 3 _ (fun t _ => flushed_eq V c t) cover

end

end Cert.KernelIdeal.Epilogue

end
-- ==== Proof.Region0.lean ====
/-
  The first region (the linear transform with the source-side scale) as ONE function of the arrays it finds.

  The grid has 10 points; point `t` takes rows `10000·t … 10000·t + 9999` of the features `x : [100000, 64]` and of the
  normaliser column `d : [100000, 1]`, the whole weight matrix `w : [64, 64]`, and writes back those rows of
  `(∑ k, x[r, k] · w[k, c]) · d[r, 0]` — on the extended reals the two narrowings to bf16 are the identity and the matrix
  unit's product into a zero accumulator is the plain sum. A row of the product only reads that row of `x`, so the row
  blocks of the 10 points are the row blocks of the whole product, and they tile the output.
  Stated for ANY contents `V` of the buffers at the region's entry.
-/
import proofs.«133588_j12635793785115_2_alg».proof.Proof.Gen.KernelIdeal.Frame
import proofs.«133588_j12635793785115_2_alg».proof.Proof.Region1
import Idealize.ShloMosaic.Lib.Pipeline.Value
import Idealize.ShloMosaic.Lib.ValueIdx
import Idealize.ShloMosaic.PureOps.Ideal.Laws

set_option maxRecDepth 16384

noncomputable section

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Epilogue (colOf hz)

/-- Entry `k` of the same row of a 64-column array. -/
abbrev inRow {n : Nat} (i : (⟨2, ![n, 64]⟩ : Shape).Idx) (k : Fin 64) : (⟨2, ![n, 64]⟩ : Shape).Idx := fun a => match a with
  | ⟨0, _⟩ => ⟨(i 0).val, (i 0).isLt⟩
  | ⟨1, _⟩ => ⟨k.val, k.isLt⟩
/-- Entry `k` of the weight matrix's column that `i`'s column names. -/
abbrev inCol {n : Nat} (i : (⟨2, ![n, 64]⟩ : Shape).Idx) (k : Fin 64) : (⟨2, ![64, 64]⟩ : Shape).Idx := fun a => match a with
  | ⟨0, _⟩ => ⟨k.val, k.isLt⟩
  | ⟨1, _⟩ => ⟨(i 1).val, (i 1).isLt⟩

/-- The linear transform of every row, each row then scaled by its normaliser. -/
def linearScale {n : Nat} (x : (⟨2, ![n, 64]⟩ : Shape).Idx → EReal) (w : (⟨2, ![64, 64]⟩ : Shape).Idx → EReal)
    (d : (⟨2, ![n, 1]⟩ : Shape).Idx → EReal) : (⟨2, ![n, 64]⟩ : Shape).Idx → EReal :=
  fun i => (∑ k : Fin 64, x (inRow i k) * w (inCol i k)) * d (colOf i)

/-! The matrix product's operand indices at an output index and a contraction index, coordinate by coordinate. -/
theorem lhs_0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem rhs_0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem rhs_1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's arithmetic on one block IS that function of the block's three loads. -/
theorem pay_eq (x0 : Vec Ideal S10000x64 .f32) (x1 : Vec Ideal S64x64 .f32) (x2 : Vec Ideal S10000x1 .f32) :
    k0_pay1 (F := Ideal) x0 x1 x2 = linearScale x0 x1 x2 := by
  funext j
  unfold k0_pay1 linearScale
  simp only [shapeCast_self]
  show FloatOps.matmul dot_S10000x64_S64x64_S10000x64_1_0_0_1_n_n none (truncf .bf16 x0 bitsLt_bf16_f32 : FVec Ideal S10000x64 .bf16)
        (truncf .bf16 x1 bitsLt_bf16_f32 : FVec Ideal S64x64 .bf16) (constant S10000x64 .f32 0x00000000#32) j
      * broadcastTo S10000x64 x2 broadcasts_S10000x1_S10000x64 j = _
  rw [Ideal.matmul_constant_zero_apply,
    broadcastTo_apply x2 broadcasts_S10000x1_S10000x64 j (colOf j) (fun a => match a with
      | ⟨0, _⟩ => by show (j 0).val = if (10000 : Nat) = 1 then 0 else (j 0).val; rw [if_neg (by decide)]
      | ⟨1, _⟩ => by show (0 : Nat) = if (1 : Nat) = 1 then 0 else (j 1).val; rw [if_pos rfl]),
    ← Equiv.sum_comp (contrEquiv1 dot_S10000x64_S64x64_S10000x64_1_0_0_1_n_n 64 rfl rfl).symm]
  refine congrArg (· * x2 (colOf j)) (Finset.sum_congr rfl fun k _ => ?_)
  have hk := contrEquiv1_symm_val dot_S10000x64_S64x64_S10000x64_1_0_0_1_n_n 64 rfl rfl k
  have el : dot_S10000x64_S64x64_S10000x64_1_0_0_1_n_n.lhsIdx j ((contrEquiv1 dot_S10000x64_S64x64_S10000x64_1_0_0_1_n_n 64 rfl rfl).symm k) = inRow j k := funext fun a => Fin.ext (by
    match a with
    | ⟨0, _⟩ => exact lhs_0 _ _
    | ⟨1, _⟩ => exact (lhs_1 _ _).trans hk)
  have er : dot_S10000x64_S64x64_S10000x64_1_0_0_1_n_n.rhsIdx j ((contrEquiv1 dot_S10000x64_S64x64_S10000x64_1_0_0_1_n_n 64 rfl rfl).symm k) = inCol j k := funext fun a => Fin.ext (by
    match a with
    | ⟨0, _⟩ => exact (rhs_0 _ _).trans hk
    | ⟨1, _⟩ => exact rhs_1 _ _)
  show x0 (dot_S10000x64_S64x64_S10000x64_1_0_0_1_n_n.lhsIdx j ((contrEquiv1 dot_S10000x64_S64x64_S10000x64_1_0_0_1_n_n 64 rfl rfl).symm k)) * x1 (dot_S10000x64_S64x64_S10000x64_1_0_0_1_n_n.rhsIdx j ((contrEquiv1 dot_S10000x64_S64x64_S10000x64_1_0_0_1_n_n 64 rfl rfl).symm k)) = _
  rw [el, er]

section
variable (V : (c : Dev nD) → (b : Ref sig .tc) → Buf (Elt Ideal) ((c : Thread nD τ).loc b))

/-- The printed index maps over the 10 points: the row-blocked windows move with the output's block, the weight
    matrix's block stays. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) ≤ 9 ∧ win0_3.index t (1 : Fin 2) = 0 :=
  (by decide +kernel : ∀ t : Fin grid0.N, _)

/-- Every row block is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- Block `t` of the function of three whole arrays is the function of their blocks at `t`: a row of the product only
    reads that row of the features and of the normaliser column, and the whole weight matrix. -/
theorem block_read (A : S100000x64.Idx → EReal) (W : S64x64.Idx → EReal) (D : S100000x1.Idx → EReal) (t : Fin cfg0.N) :
    (cfg0.win 3).cut (grid0.coords t) (linearScale (n := 10000)
        (((cfg0.win 0).blk t).view.read (Elt Ideal) A) (((cfg0.win 1).blk t).view.read (Elt Ideal) W)
        (((cfg0.win 2).blk t).view.read (Elt Ideal) D))
      = ((cfg0.win 3).blk t).view.read (Elt Ideal) (linearScale (n := 100000) A W D) := by
  obtain ⟨e0, e1, e2, e3, e4, e5, e6, e7⟩ := idx_facts t
  funext j
  show (∑ k : Fin 64, A (((cfg0.win 0).blk t).view.emb (inRow j k)) * W (((cfg0.win 1).blk t).view.emb (inCol j k)))
        * D (((cfg0.win 2).blk t).view.emb (colOf j))
      = (∑ k : Fin 64, A (inRow (((cfg0.win 3).blk t).view.emb j) k) * W (inCol (((cfg0.win 3).blk t).view.emb j) k))
        * D (colOf (((cfg0.win 3).blk t).view.emb j))
  have h0 : ∀ k : Fin 64, ((cfg0.win 0).blk t).view.emb (inRow j k) = inRow (((cfg0.win 3).blk t).view.emb j) k := by
    intro k; funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 64 + 1 * k.val = k.val; omega
  have h1 : ∀ k : Fin 64, ((cfg0.win 1).blk t).view.emb (inCol j k) = inCol (((cfg0.win 3).blk t).view.emb j) k := by
    intro k; funext a; apply Fin.ext
    match a with
    | ⟨0, _⟩ => show win0_1.index t (0 : Fin 2) * 64 + 1 * k.val = k.val; omega
    | ⟨1, _⟩ => show win0_1.index t (1 : Fin 2) * 64 + 1 * (j 1).val = win0_3.index t (1 : Fin 2) * 64 + 1 * (j 1).val; omega
  have h2 : ((cfg0.win 2).blk t).view.emb (colOf j) = colOf (((cfg0.win 3).blk t).view.emb j) := by
    funext a; apply Fin.ext
    match a with
    | ⟨0, _⟩ => show win0_2.index t (0 : Fin 2) * 10000 + 1 * (j 0).val = win0_3.index t (0 : Fin 2) * 10000 + 1 * (j 0).val; omega
    | ⟨1, _⟩ => show win0_2.index t (1 : Fin 2) * 1 + 1 * 0 = 0; omega
  rw [h2]
  refine congrArg (· * _) (Finset.sum_congr rfl fun k _ => ?_)
  rw [h0 k, h1 k]

/-- What point `t` writes back is block `t` of the function of the three arrays as the region finds them. -/
theorem flushed_eq (c : Dev nD) (t : Fin cfg0.N) :
    (dat0 V c).flushed 3 t = ((cfg0.win 3).blk t).view.read (Elt Ideal)
      (linearScale (n := 100000) (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S10000x64) hz, View.ld_unit_zero (S := S10000x1) hz, View.ld_unit_zero (S := S64x64) hz]
  rw [pay_eq (iblk0 V c 0 t) (iblk0 V c 1 t) (iblk0 V c 2 t)]
  exact block_read (V c main_arg0) (V c main_arg2) (V c main_v15) t

/-- An index of the output is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v16).slice (win0_3.rect t)).set ↔ _
  rw [View.set_slice_whole, Rect.mem_set_unit]
  exact Iff.rfl

/-- The 10 row blocks cover the output: row `r` is in the block of the point whose block index is `r / 10000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- THE OUTPUT ARRAY after the region. -/
theorem final (c : Dev nD) :
    (dat0 V c).arrAt 3 cfg0.N = linearScale (n := 100000) (V c main_arg0) (V c main_arg2) (V c main_v15) :=
  (dat0 V c).arrAt_eq_of_cover 3 _ (fun t _ => flushed_eq V c t) cover

end

end Cert.KernelIdeal.Linear

end
-- ==== Proof.KernelValue.lean ====
/-
  The idealized kernel's result as ONE function of its four arguments, in the reference's own words for everything the
  two programs build alike from the edge index `ei` (the edge lists, the normaliser):
    normCol ei            the normaliser, as the column [100000, 1] both regions read;
    aggregated x ei w     the rows of the scaled linear transform gathered at the source list and added up at the
                          target list;
    result x ei w b       each aggregated row scaled by its node's normaliser, the bias added, clamped below at zero.
-/
import proofs.«133588_j12635793785115_2_alg».proof.Proof.Gen.KernelIdeal
import proofs.«133588_j12635793785115_2_alg».proof.Proof.RefRead
import proofs.«133588_j12635793785115_2_alg».proof.Proof.Region0
import proofs.«133588_j12635793785115_2_alg».proof.Proof.Region1

noncomputable section

namespace Cert.KernelIdeal.Value

open Cert.KernelIdeal Cert.KernelIdeal.Gen Idealize.ShloMosaic
open Cert.ReferenceIdeal.ReadP
open Cert.KernelIdeal.Epilogue (scaleBiasClamp)
open Cert.KernelIdeal.Linear (linearScale)

/-- The normaliser of the edge index `ei`, as the column `[100000, 1]` both regions read. -/
def normCol (ei : (⟨Cert.ReferenceIdeal.S2x1000000, .i32⟩ : BufTy).Contents (Elt Ideal)) : S100000x1.Idx → EReal :=
  shapeCast S100000x1 (val_main_v15 (F := Ideal) ei) shapeCasts_S100000_S100000x1

/-- The bias as the row `[1, 64]` the second region reads. -/
def biasRow (b : (⟨Cert.ReferenceIdeal.S64, .f32⟩ : BufTy).Contents (Elt Ideal)) : S1x64.Idx → EReal :=
  shapeCast S1x64 b shapeCasts_S64_S1x64

/-- The aggregated features: the scaled linear transform's rows, gathered at the source list, added up at the target
    list. The lists are the reference's own stages of the edge index. -/
def aggregated (x : (⟨Cert.ReferenceIdeal.S100000x64, .f32⟩ : BufTy).Contents (Elt Ideal))
    (ei : (⟨Cert.ReferenceIdeal.S2x1000000, .i32⟩ : BufTy).Contents (Elt Ideal))
    (w : (⟨Cert.ReferenceIdeal.S64x64, .f32⟩ : BufTy).Contents (Elt Ideal)) : FVec Ideal Cert.ReferenceIdeal.S100000x64 .f32 :=
  Host.scatterAdd (F := Ideal) (φ := .f32) Cert.ReferenceIdeal.scatter_S100000x64_S1100000x1_S1100000x64_1_0_0_1
    (val_main_v41 (F := Ideal)) (val_main_v42 (F := Ideal) ei)
    (Host.gather (α := EReal) Cert.ReferenceIdeal.gather_S100000x64_S1100000x1_S1100000x64_1_0_n_n_0_1_164
      (linearScale (n := 100000) x w (normCol ei)) (val_main_v37 (F := Ideal) ei))

/-- THE KERNEL'S RESULT as one function of the four arguments. -/
def result (x : (⟨Cert.ReferenceIdeal.S100000x64, .f32⟩ : BufTy).Contents (Elt Ideal))
    (ei : (⟨Cert.ReferenceIdeal.S2x1000000, .i32⟩ : BufTy).Contents (Elt Ideal))
    (w : (⟨Cert.ReferenceIdeal.S64x64, .f32⟩ : BufTy).Contents (Elt Ideal))
    (b : (⟨Cert.ReferenceIdeal.S64, .f32⟩ : BufTy).Contents (Elt Ideal)) : S100000x64.Idx → EReal :=
  scaleBiasClamp (n := 100000) (k := 64) (aggregated x ei w) (normCol ei) (biasRow b)

end Cert.KernelIdeal.Value

end
-- ==== Proof.HostState.lean ====
/-
  What the idealized kernel's host operations hold, stretch by stretch, in the words of the reference's stages.

  Both programs build the same things from the edge index `ei : [2, 1000000]` by the same operations: the source list
  `row` and target list `col` (each the given edges followed by the 100000 self-loops), the in-degree (a scatter-add of
  ones at `col`), and the normaliser (`rsqrt deg` where `deg > 0`, else `0`). So after the kernel's first stretches its
  buffers hold exactly the reference's stages of `ei` — stated here as such, never opened.  Then: the first region leaves
  the scaled linear transform; the second stretch gathers its rows at `row` and scatter-adds them at `col`; the second
  region scales by the normaliser, adds the bias and clamps.
-/
import proofs.«133588_j12635793785115_2_alg».proof.Proof.Gen.KernelIdeal.Frame
import proofs.«133588_j12635793785115_2_alg».proof.Proof.RefRead
import proofs.«133588_j12635793785115_2_alg».proof.Proof.Region0
import proofs.«133588_j12635793785115_2_alg».proof.Proof.Region1
import proofs.«133588_j12635793785115_2_alg».proof.Proof.KernelValue

set_option maxRecDepth 200000

noncomputable section

namespace Cert.KernelIdeal.HostState

open Cert.KernelIdeal Cert.KernelIdeal.Gen Idealize.ShloMosaic Idealize.ShloMosaic.TcCoe Idealize.SL.Sem Idealize.ShloMosaic.StableHlo
open Cert.ReferenceIdeal.ReadP
open Cert.KernelIdeal.Epilogue (scaleBiasClamp)
open Cert.KernelIdeal.Linear (linearScale)
open Cert.KernelIdeal.Value (normCol biasRow aggregated result)

variable (m : (ℓ : Loc nD τ sig) → Buf (Elt Ideal) ℓ) (ρ : Dev nD → PrngReg) (c : Dev nD)

/-! ## After the first stretch: the edge lists, the degree test, the reciprocal root, as the reference's stages -/

theorem col_1 : W1 m ρ c (Proc.devRef .tc main_v6) = val_main_v7 (F := Ideal) (m ((c.tc : Thread nD τ).loc main_arg1)) := by
  show StableHlo.after hostOps0 (W0 m ρ c) (Proc.devRef .tc main_v6) = _
  after_results
  rfl
theorem row_1 : W1 m ρ c (Proc.devRef .tc main_v3) = val_main_v4 (F := Ideal) (m ((c.tc : Thread nD τ).loc main_arg1)) := by
  show StableHlo.after hostOps0 (W0 m ρ c) (Proc.devRef .tc main_v3) = _
  after_results
  rfl
theorem pos_1 : W1 m ρ c (Proc.devRef .tc main_v12) = val_main_v13 (F := Ideal) (m ((c.tc : Thread nD τ).loc main_arg1)) := by
  show StableHlo.after hostOps0 (W0 m ρ c) (Proc.devRef .tc main_v12) = _
  after_results
  rfl
theorem rsq_1 : W1 m ρ c (Proc.devRef .tc main_v13) = val_main_v14 (F := Ideal) (m ((c.tc : Thread nD τ).loc main_arg1)) := by
  show StableHlo.after hostOps0 (W0 m ρ c) (Proc.devRef .tc main_v13) = _
  after_results
  rfl
theorem zero_1 : W1 m ρ c (Proc.devRef .tc main_cst_2) = val_main_cst_2 (F := Ideal) := by
  show StableHlo.after hostOps0 (W0 m ρ c) (Proc.devRef .tc main_cst_2) = _
  after_results
  rfl
theorem x_1 : W1 m ρ c (Proc.devRef .tc main_arg0) = m ((c.tc : Thread nD τ).loc main_arg0) := by
  show StableHlo.after hostOps0 (W0 m ρ c) (Proc.devRef .tc main_arg0) = _
  after_results
theorem w_1 : W1 m ρ c (Proc.devRef .tc main_arg2) = m ((c.tc : Thread nD τ).loc main_arg2) := by
  show StableHlo.after hostOps0 (W0 m ρ c) (Proc.devRef .tc main_arg2) = _
  after_results
theorem b_1 : W1 m ρ c (Proc.devRef .tc main_arg3) = m ((c.tc : Thread nD τ).loc main_arg3) := by
  show StableHlo.after hostOps0 (W0 m ρ c) (Proc.devRef .tc main_arg3) = _
  after_results

/-! ## After the call of `where` and the reshape: the normaliser, as a column -/

/-- The call of `where` from ANY contents `U`: the select of the three buffers it reads. -/
theorem where_result (U : Valuation τ sig (Elt Ideal)) :
    StableHlo.after hostOps0_1 U (Proc.devRef .tc main_v14)
      = select (U (Proc.devRef .tc main_v12)) (U (Proc.devRef .tc main_v13))
          (broadcastInDim S100000 ![] bcast_S_S100000 (id (U (Proc.devRef .tc main_cst_2)))) := by
  after_results
  rfl

theorem norm_2 : W2 m ρ c (Proc.devRef .tc main_v14) = val_main_v15 (F := Ideal) (m ((c.tc : Thread nD τ).loc main_arg1)) := by
  show StableHlo.after hostOps0_1 (W1 m ρ c) (Proc.devRef .tc main_v14) = _
  rw [where_result, pos_1 m ρ c, rsq_1 m ρ c, zero_1 m ρ c]
  unfold val_main_v15 val_main_call0_v1 val_main_call0_v0
  rfl

theorem normCol_3 : W3 m ρ c (Proc.devRef .tc main_v15) = normCol (m ((c.tc : Thread nD τ).loc main_arg1)) := by
  show StableHlo.after hostOps0_2 (W2 m ρ c) (Proc.devRef .tc main_v15) = _
  obtain ⟨U, hU⟩ : ∃ U : Valuation τ sig (Elt Ideal), U = W2 m ρ c := ⟨_, rfl⟩
  rw [← hU]
  after_results
  subst hU
  rw [norm_2 m ρ c]
  rfl

/-! The call of `where` and the reshape write none of the edge lists or the arguments. -/
theorem col_3 : W3 m ρ c (Proc.devRef .tc main_v6) = W1 m ρ c (Proc.devRef .tc main_v6) := by
  show StableHlo.after hostOps0_2 (StableHlo.after hostOps0_1 (W1 m ρ c)) (Proc.devRef .tc main_v6) = _
  obtain ⟨U, hU⟩ : ∃ U : Valuation τ sig (Elt Ideal), U = W1 m ρ c := ⟨_, rfl⟩
  rw [← hU]
  after_results
theorem row_3 : W3 m ρ c (Proc.devRef .tc main_v3) = W1 m ρ c (Proc.devRef .tc main_v3) := by
  show StableHlo.after hostOps0_2 (StableHlo.after hostOps0_1 (W1 m ρ c)) (Proc.devRef .tc main_v3) = _
  obtain ⟨U, hU⟩ : ∃ U : Valuation τ sig (Elt Ideal), U = W1 m ρ c := ⟨_, rfl⟩
  rw [← hU]
  after_results
theorem x_3 : W3 m ρ c (Proc.devRef .tc main_arg0) = W1 m ρ c (Proc.devRef .tc main_arg0) := by
  show StableHlo.after hostOps0_2 (StableHlo.after hostOps0_1 (W1 m ρ c)) (Proc.devRef .tc main_arg0) = _
  obtain ⟨U, hU⟩ : ∃ U : Valuation τ sig (Elt Ideal), U = W1 m ρ c := ⟨_, rfl⟩
  rw [← hU]
  after_results
theorem w_3 : W3 m ρ c (Proc.devRef .tc main_arg2) = W1 m ρ c (Proc.devRef .tc main_arg2) := by
  show StableHlo.after hostOps0_2 (StableHlo.after hostOps0_1 (W1 m ρ c)) (Proc.devRef .tc main_arg2) = _
  obtain ⟨U, hU⟩ : ∃ U : Valuation τ sig (Elt Ideal), U = W1 m ρ c := ⟨_, rfl⟩
  rw [← hU]
  after_results
theorem b_3 : W3 m ρ c (Proc.devRef .tc main_arg3) = W1 m ρ c (Proc.devRef .tc main_arg3) := by
  show StableHlo.after hostOps0_2 (StableHlo.after hostOps0_1 (W1 m ρ c)) (Proc.devRef .tc main_arg3) = _
  obtain ⟨U, hU⟩ : ∃ U : Valuation τ sig (Elt Ideal), U = W1 m ρ c := ⟨_, rfl⟩
  rw [← hU]
  after_results

/-! ## After the first region: its output is the scaled linear transform; everything else is as it was -/

theorem col_4 : W4 m ρ c (Proc.devRef .tc main_v6) = val_main_v7 (F := Ideal) (m ((c.tc : Thread nD τ).loc main_arg1)) :=
  (W4_of_ne m ρ c main_v6 (by decide)).trans ((col_3 m ρ c).trans (col_1 m ρ c))
theorem row_4 : W4 m ρ c (Proc.devRef .tc main_v3) = val_main_v4 (F := Ideal) (m ((c.tc : Thread nD τ).loc main_arg1)) :=
  (W4_of_ne m ρ c main_v3 (by decide)).trans ((row_3 m ρ c).trans (row_1 m ρ c))
theorem b_4 : W4 m ρ c (Proc.devRef .tc main_arg3) = m ((c.tc : Thread nD τ).loc main_arg3) :=
  (W4_of_ne m ρ c main_arg3 (by decide)).trans ((b_3 m ρ c).trans (b_1 m ρ c))
theorem normCol_4 : W4 m ρ c (Proc.devRef .tc main_v15) = normCol (m ((c.tc : Thread nD τ).loc main_arg1)) :=
  (W4_arr m ρ c 2).trans (((dat0 (V3 m ρ) c).arrAt_in 2 rfl _).trans ((A_eq0 (V3 m ρ) c 2).trans (normCol_3 m ρ c)))

theorem lin_4 : W4 m ρ c (Proc.devRef .tc main_v16)
    = linearScale (n := 100000) (m ((c.tc : Thread nD τ).loc main_arg0)) (m ((c.tc : Thread nD τ).loc main_arg2))
        (normCol (m ((c.tc : Thread nD τ).loc main_arg1))) := by
  refine (W4_arr m ρ c 3).trans ((Cert.KernelIdeal.Linear.final (V3 m ρ) c).trans ?_)
  rw [show V3 m ρ c main_arg0 = m ((c.tc : Thread nD τ).loc main_arg0) from (x_3 m ρ c).trans (x_1 m ρ c),
    show V3 m ρ c main_arg2 = m ((c.tc : Thread nD τ).loc main_arg2) from (w_3 m ρ c).trans (w_1 m ρ c),
    show V3 m ρ c main_v15 = normCol (m ((c.tc : Thread nD τ).loc main_arg1)) from normCol_3 m ρ c]

/-! ## After the second stretch: the scaled rows gathered at `row` and scatter-added at `col` -/

theorem agg_5 : W5 m ρ c (Proc.devRef .tc main_v26)
    = aggregated (m ((c.tc : Thread nD τ).loc main_arg0)) (m ((c.tc : Thread nD τ).loc main_arg1)) (m ((c.tc : Thread nD τ).loc main_arg2)) := by
  show StableHlo.after hostOps1 (W4 m ρ c) (Proc.devRef .tc main_v26) = _
  after_results
  rw [col_4 m ρ c, lin_4 m ρ c, row_4 m ρ c]
  rfl
theorem normCol_5 : W5 m ρ c (Proc.devRef .tc main_v15) = normCol (m ((c.tc : Thread nD τ).loc main_arg1)) := by
  show StableHlo.after hostOps1 (W4 m ρ c) (Proc.devRef .tc main_v15) = _
  after_results
  exact normCol_4 m ρ c
theorem bias_5 : W5 m ρ c (Proc.devRef .tc main_v27) = biasRow (m ((c.tc : Thread nD τ).loc main_arg3)) := by
  show StableHlo.after hostOps1 (W4 m ρ c) (Proc.devRef .tc main_v27) = _
  after_results
  rw [b_4 m ρ c]
  rfl

/-! ## After the second region: the result -/

theorem result_6 : W6 m ρ c (Proc.devRef .tc main_v28)
    = result (m ((c.tc : Thread nD τ).loc main_arg0)) (m ((c.tc : Thread nD τ).loc main_arg1))
        (m ((c.tc : Thread nD τ).loc main_arg2)) (m ((c.tc : Thread nD τ).loc main_arg3)) := by
  refine (W6_arr m ρ c 3).trans ((Cert.KernelIdeal.Epilogue.final (V5 m ρ) c).trans ?_)
  rw [show V5 m ρ c main_v26 = _ from agg_5 m ρ c, show V5 m ρ c main_v15 = _ from normCol_5 m ρ c,
    show V5 m ρ c main_v27 = _ from bias_5 m ρ c]
  rfl

end Cert.KernelIdeal.HostState

end
-- ==== Proof.Edges.lean ====
/-
  Which element a gather reads and where a scatter lands, for the dimension numbers of this graph's two irregular
  operations. The graph has 100000 nodes and 1100000 edges (the given ones and one self-loop per node); an edge list is a
  column of 32-bit integers `[1100000, 1]`.
  • Gathering ROWS of a node-feature table `[100000, 64]` at an edge list: row `e` of the result is the table's row
    `clamp (list e)` — the index read signed and clamped into `[0, 99999]` —, the column kept.
  • Gathering SCALARS of a per-node vector `[100000]` at an edge list: element `e` is the vector at `clamp (list e)`.
  • Scatter-adding edge rows `[1100000, 64]` into node rows at an edge list: row `e` lands on node `list e` read signed
    and NOT clamped (an index outside `[0, 99999]` drops the row); so an update that lands on node `i` has `list e = i`.
-/
import Idealize.ShloMosaic.PureOps.Dims
import Idealize.ShloMosaic.PureOps.ShapeOps
import Idealize.ShloMosaic.Lib.ValueIdx

noncomputable section

namespace Cert.Edges

open Idealize.ShloMosaic Idealize.ShloMosaic.ValueIdx

abbrev Nodes : Shape := ⟨1, ![100000]⟩
abbrev NodeRows : Shape := ⟨2, ![100000, 64]⟩
abbrev EdgeList : Shape := ⟨2, ![1100000, 1]⟩
abbrev EdgeVec : Shape := ⟨1, ![1100000]⟩
abbrev EdgeRows : Shape := ⟨2, ![1100000, 64]⟩

/-- Rows of a node table at an edge list. -/
def gatherRows : GatherDims NodeRows EdgeList EdgeRows where
  offsetDims := [1]
  collapsedSliceDims := [0]
  operandBatchingDims := []
  startIndicesBatchingDims := []
  startIndexMap := [0]
  indexVectorDim := 1
  sliceSizes := ![1, 64]

/-- Scalars of a per-node vector at an edge list. -/
def gatherScalars : GatherDims Nodes EdgeList EdgeVec where
  offsetDims := []
  collapsedSliceDims := [0]
  operandBatchingDims := []
  startIndicesBatchingDims := []
  startIndexMap := [0]
  indexVectorDim := 1
  sliceSizes := ![1]

/-- Edge rows added into node rows at an edge list. -/
def scatterRows : ScatterDims NodeRows EdgeList EdgeRows where
  updateWindowDims := [1]
  insertedWindowDims := [0]
  scatterDimsToOperandDims := [0]
  indexVectorDim := 1

/-- The node an edge-list entry names for a gather: read signed, clamped into the table. -/
def clampNode {w : Nat} (v : BitVec w) : Fin 100000 := ⟨min v.toInt.toNat 99999, by omega⟩

/-- The edge list's entry for edge `e`. -/
abbrev entry (e : Fin 1100000) : EdgeList.Idx := ix2 e (0 : Fin 1)

theorem gatherScalars_apply {α : Type} {w : Nat} (x : Nodes.Idx → α) (idx : IVec EdgeList w) (e : Fin 1100000) :
    Host.gather gatherScalars x idx (ix1 e) = x (ix1 (clampNode (idx (entry e)))) := by
  unfold Host.gather
  congr 1
  funext a
  obtain rfl : a = 0 := Subsingleton.elim _ _
  refine Fin.ext ?_
  show gatherScalars.start (ix1 e) idx 0 + gatherScalars.batchCoord (ix1 e) 0 + gatherScalars.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gatherScalars.startIndexMap from List.mem_singleton.mpr rfl)]
  have hsi : gatherScalars.siIdx (ix1 e) ⟨List.idxOf (0 : Fin 1) gatherScalars.startIndexMap,
      List.idxOf_lt_length_iff.2 (List.mem_singleton.mpr rfl)⟩ = entry e := by
    funext b; refine Fin.ext ?_
    match b with
    | ⟨0, _⟩ => rfl
    | ⟨1, _⟩ => rfl
  rw [hsi]
  rfl

/-- The row a gathered edge row comes from: the edge's list entry, clamped. -/
theorem gatherRows_row {w : Nat} (idx : IVec EdgeList w) (e : Fin 1100000) (q : Fin 64) :
    (gatherRows.operandIdx (ix2 e q) idx (0 : Fin 2)).val = (clampNode (idx (entry e))).val := by
  show gatherRows.start (ix2 e q) idx (0 : Fin 2) + gatherRows.batchCoord (ix2 e q) (0 : Fin 2)
    + gatherRows.offCoord (ix2 e q) (0 : Fin 2) = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ gatherRows.startIndexMap from List.mem_singleton.mpr rfl)]
  have hsi : gatherRows.siIdx (ix2 e q) ⟨List.idxOf (0 : Fin 2) gatherRows.startIndexMap,
      List.idxOf_lt_length_iff.2 (List.mem_singleton.mpr rfl)⟩ = entry e := by
    funext b; refine Fin.ext ?_
    match b with
    | ⟨0, _⟩ => rfl
    | ⟨1, _⟩ => rfl
  rw [hsi]
  rfl

/-- Its column is the edge row's own. -/
theorem gatherRows_col {w : Nat} (idx : IVec EdgeList w) (e : Fin 1100000) (q : Fin 64) :
    (gatherRows.operandIdx (ix2 e q) idx (1 : Fin 2)).val = q.val := by
  show gatherRows.start (ix2 e q) idx (1 : Fin 2) + gatherRows.batchCoord (ix2 e q) (1 : Fin 2)
    + gatherRows.offCoord (ix2 e q) (1 : Fin 2) = _
  have hs : gatherRows.start (ix2 e q) idx (1 : Fin 2) = 0 := by
    unfold GatherDims.start
    rw [dif_neg (show ¬ (1 : Fin 2) ∈ gatherRows.startIndexMap by decide)]
  rw [GatherDims.batchCoord_eq_zero _ _ _ List.not_mem_nil, Nat.add_zero, hs, Nat.zero_add]
  unfold GatherDims.offCoord
  rw [dif_pos (show (1 : Fin 2) ∈ gatherRows.sKept by decide)]
  rfl

theorem gatherRows_apply {α : Type} {w : Nat} (x : NodeRows.Idx → α) (idx : IVec EdgeList w) (e : Fin 1100000) (q : Fin 64) :
    Host.gather gatherRows x idx (ix2 e q) = x (ix2 (clampNode (idx (entry e))) q) := by
  unfold Host.gather
  congr 1
  funext a
  refine Fin.ext ?_
  match a with
  | ⟨0, _⟩ => exact gatherRows_row idx e q
  | ⟨1, _⟩ => exact gatherRows_col idx e q

/-- An update row that lands on node `n`'s row comes from an edge whose list entry, read signed, IS `n`. -/
theorem scatterRows_lands {w : Nat} (idx : IVec EdgeList w) (e : Fin 1100000) (q : Fin 64) (n : Fin 100000) (r : Fin 64)
    (h : scatterRows.resultIdx? (ix2 e q) idx = some (ix2 n r)) : (idx (entry e)).toInt = (n.val : Int) := by
  unfold ScatterDims.resultIdx? at h
  split at h
  · rename_i hall
    have hi := congrFun (Option.some.inj h) (0 : Fin 2)
    have hb := (hall (0 : Fin 2)).1
    have hs : scatterRows.start (ix2 e q) idx (0 : Fin 2) = (idx (entry e)).toInt := by
      unfold ScatterDims.start
      rw [dif_pos (show (0 : Fin 2) ∈ scatterRows.scatterDimsToOperandDims from List.mem_singleton.mpr rfl)]
      have hsi : scatterRows.siIdx (ix2 e q) ⟨List.idxOf (0 : Fin 2) scatterRows.scatterDimsToOperandDims,
          List.idxOf_lt_length_iff.2 (List.mem_singleton.mpr rfl)⟩ = entry e := by
        funext b; refine Fin.ext ?_
        match b with
        | ⟨0, _⟩ => rfl
        | ⟨1, _⟩ => rfl
      rw [hsi]
    have hw : scatterRows.window (ix2 e q) (0 : Fin 2) = 0 := by
      unfold ScatterDims.window
      rw [dif_neg (show ¬ (0 : Fin 2) ∈ scatterRows.sKept by decide)]
    have hv : (scatterRows.start (ix2 e q) idx (0 : Fin 2) + ((scatterRows.window (ix2 e q) (0 : Fin 2) : Nat) : Int)).toNat = n.val :=
      congrArg Fin.val hi
    rw [hs, hw] at hv hb
    omega
  · exact absurd h (by simp)

end Cert.Edges

end
-- ==== Proof.Law.lean ====
/-
  The algebra behind the equivalence, on the extended reals.

  A node's symmetric normaliser is `n = rsqrt deg` where the in-degree `deg` is positive and `0` where it is not; either
  way `0 ≤ n < ⊤`. One program scales every message by the source's normaliser, sums the messages arriving at a node and
  then multiplies the SUM by the node's own normaliser `d`; the other multiplies every message by the product of the
  two normalisers before summing. The two agree because multiplication by a nonnegative FINITE extended real
  distributes over every sum of extended reals, infinite terms included — which is false for a factor `⊤` or a negative
  one, and is why the normaliser's range is the one fact the law needs. No input has to be finite.
-/
import Idealize.ShloMosaic.PureOps.Ideal
import Idealize.ShloMosaic.PureOps.Ideal.Laws

noncomputable section

namespace Cert.Law

open Idealize.ShloMosaic

/-- The reciprocal square root of a positive extended real is a nonnegative real: `0` at `⊤`, `(√r)⁻¹` at a real. -/
theorem rsqrt_range {x : EReal} (hx : 0 < x) : 0 ≤ Ideal.rsqrt x ∧ Ideal.rsqrt x ≠ ⊤ := by
  induction x using EReal.rec with
  | bot => exact absurd hx (not_lt_bot)
  | top => rw [Ideal.rsqrt_top]; exact ⟨le_refl _, EReal.zero_ne_top⟩
  | coe r =>
    have hr : 0 < r := by exact_mod_cast hx
    rw [Ideal.rsqrt_coe, if_neg (not_lt.mpr hr.le), if_neg hr.ne']
    exact ⟨by exact_mod_cast inv_nonneg.mpr (Real.sqrt_nonneg r), EReal.coe_ne_top _⟩

/-- The normaliser of a node of in-degree `deg`: `rsqrt deg` where `deg > z`, else `z`, with `z` the zero both programs
    compare against and fall back to. It is a nonnegative finite extended real. -/
theorem normaliser_range (deg z : EReal) (hz : z = 0) :
    0 ≤ Scalar.select (Ideal.cmp .ogt deg z) (Ideal.rsqrt deg) z
      ∧ Scalar.select (Ideal.cmp .ogt deg z) (Ideal.rsqrt deg) z ≠ ⊤ := by
  subst hz
  unfold Scalar.select Ideal.cmp
  by_cases h : (0 : EReal) < deg
  · rw [if_pos (by simp [h])]
    exact rsqrt_range h
  · rw [if_neg (by simp [h])]
    exact ⟨le_refl _, EReal.zero_ne_top⟩

/-- A nonnegative finite factor goes through any finite sum of extended reals. -/
theorem sum_mul_of_nonneg_of_ne_top {J : Type} (S : Finset J) (t : J → EReal) {d : EReal} (h0 : 0 ≤ d) (ht : d ≠ ⊤) :
    (∑ j ∈ S, t j) * d = ∑ j ∈ S, t j * d := by
  classical
  refine Finset.induction_on S ?_ ?_
  · rw [Finset.sum_empty, Finset.sum_empty, zero_mul]
  · intro a S ha ih
    rw [Finset.sum_insert ha, Finset.sum_insert ha, EReal.right_distrib_of_nonneg_of_ne_top h0 ht, ih]

/-- THE LAW. Messages `h j` from sources of normaliser `a j`, summed over the edges `S` into a node of normaliser `d`,
    a bias `b` added and the result clamped below at `y`: scaling the sum by `d` afterwards, or every message by `a j · d`
    beforehand, is the same extended real. (`z` is the zero the accumulation starts from.) -/
theorem aggregate {J : Type} (S : Finset J) (h a : J → EReal) {d : EReal} (b z y : EReal) (hz : z = 0)
    (h0 : 0 ≤ d) (ht : d ≠ ⊤) :
    max ((z + ∑ j ∈ S, h j * a j) * d + b) y = max ((z + ∑ j ∈ S, (a j * d) * h j) + b) y := by
  subst hz
  rw [zero_add, zero_add, sum_mul_of_nonneg_of_ne_top S _ h0 ht]
  refine congrArg (fun s => max (s + b) y) (Finset.sum_congr rfl fun j _ => ?_)
  rw [mul_assoc, mul_comm]

end Cert.Law

end
-- ==== Proof.RefStages.lean ====
/-
  The reference's stages read at an edge and at a node.

  An edge `e` has a source entry and a target entry in the two edge lists. The reference wraps a negative entry by the node
  count before it gathers with it; the scatter that adds an edge's row into a node row reads the target entry unwrapped.
  So for an edge whose row LANDS on node `n` the target entry is `n` itself: nonnegative, hence not wrapped, and inside
  the table, hence not clamped — the normaliser the reference gathers for the edge's target is node `n`'s.
  The normaliser is a nonnegative finite extended real at every node (the law's one hypothesis).
-/
import proofs.«133588_j12635793785115_2_alg».proof.Proof.RefRead
import proofs.«133588_j12635793785115_2_alg».proof.Proof.Edges
import proofs.«133588_j12635793785115_2_alg».proof.Proof.Law

noncomputable section

namespace Cert.ReferenceIdeal.Stages

open Cert.ReferenceIdeal Cert.ReferenceIdeal.ReadP Idealize.ShloMosaic Idealize.ShloMosaic.ValueIdx
open Cert.Edges (clampNode entry)

variable (ei : (⟨S2x1000000, .i32⟩ : BufTy).Contents (Elt Ideal))

/-- Node `v`'s normaliser, as an extended real. -/
def nrm (v : Fin 100000) : EReal := val_main_v15 (F := Ideal) ei (ix1 v)

/-- The normaliser at every node is a nonnegative finite extended real: it is `rsqrt deg` where `deg` exceeds the
    zero word's value and that value elsewhere (the degree itself stays closed). -/
theorem nrm_range (v : Fin 100000) : 0 ≤ nrm ei v ∧ nrm ei v ≠ ⊤ := by
  unfold nrm
  rw [val_main_v15_apply, val_main_v13_apply, val_main_v14_apply]
  generalize val_main_v11 (F := Ideal) ei (ix1 v) = d
  exact Cert.Law.normaliser_range d (Ideal.ofBits .f32 0x00000000#32) Ideal.ofBits_zero_f32

/-- The source list the two gathers of the reference read is one list. -/
theorem sources_eq : val_main_v21 (F := Ideal) ei = val_main_v37 (F := Ideal) ei := rfl

/-- The target entry of an edge, as the scatter reads it. -/
theorem target_entry (e : Fin 1100000) : val_main_v42 (F := Ideal) ei (entry e) = val_main_v7 (F := Ideal) ei (ix1 e) := by
  rw [val_main_v42_apply]
  exact congrArg _ (funext fun a => Fin.ext (by match a with | ⟨0, _⟩ => rfl))

/-- An edge whose target entry, read signed, is node `n`: the wrapped-and-clamped target the reference gathers the
    normaliser at is `n`. -/
theorem target_node (e : Fin 1100000) (n : Fin 100000)
    (h : (val_main_v42 (F := Ideal) ei (entry e)).toInt = (n.val : Int)) :
    clampNode (val_main_v28 (F := Ideal) ei (entry e)) = n := by
  rw [target_entry] at h
  have hidx : idx_main_v28 (entry e) = ix1 e := funext fun a => Fin.ext (by match a with | ⟨0, _⟩ => rfl)
  rw [val_main_v28_apply, hidx, val_main_v27_apply, val_main_v24_apply, val_main_v23_apply, val_main_c_4_apply]
  generalize val_main_v7 (F := Ideal) ei (ix1 e) = cv at h ⊢
  have hn : n.val < 100000 := n.isLt
  have hslt : IntOp.cmpi .slt cv (0#32) = 0#1 := by
    unfold IntOp.cmpi
    have : cv.slt (0#32) = false := by
      rw [BitVec.slt]; simp only [BitVec.toInt_zero, decide_eq_false_iff_not, not_lt]; omega
    simp [this]
  rw [hslt, select_zero]
  apply Fin.ext
  show min cv.toInt.toNat 99999 = n.val
  omega

end Cert.ReferenceIdeal.Stages

end
-- ==== Proof.BridgeCore.lean ====
/-
  The two results are one function of the arguments.

  At node `n`, feature `r`, with `S` the edge rows that land on `(n, r)`, `src e` the (wrapped, clamped) source of edge `e`,
  `msg j = ∑ k, x[src e, k] · w[k, q]` for the edge row `j = (e, q)` and `nrm` the normaliser:
    the reference computes  max ((0 + ∑ j ∈ S, (nrm (src e) · nrm n) · msg j) + b r) 0,
    the kernel computes     max ((0 + ∑ j ∈ S, msg j · nrm (src e)) · nrm n + b r) 0,
  with the same set, lists and normaliser on both sides (they are the same stages of the edge index, never opened);
  equal by the law (Law.lean), whose hypothesis is the normaliser's range (RefStages.lean).
-/
import proofs.«133588_j12635793785115_2_alg».proof.Proof.RefStages
import proofs.«133588_j12635793785115_2_alg».proof.Proof.KernelValue
import Idealize.ShloMosaic.Lib.ValueLayout

noncomputable section

namespace Cert.Bridge

open Idealize.ShloMosaic Idealize.ShloMosaic.ValueIdx
open Cert.ReferenceIdeal.ReadP
open Cert.ReferenceIdeal.Stages (nrm)
open Cert.Edges (clampNode entry)
open Cert.KernelIdeal.Value (result aggregated normCol biasRow)
open Cert.KernelIdeal.Epilogue (scaleBiasClamp colOf rowOf)
open Cert.KernelIdeal.Linear (linearScale inRow inCol)

variable (x : (⟨Cert.ReferenceIdeal.S100000x64, .f32⟩ : BufTy).Contents (Elt Ideal))
  (ei : (⟨Cert.ReferenceIdeal.S2x1000000, .i32⟩ : BufTy).Contents (Elt Ideal))
  (w : (⟨Cert.ReferenceIdeal.S64x64, .f32⟩ : BufTy).Contents (Elt Ideal))
  (b : (⟨Cert.ReferenceIdeal.S64, .f32⟩ : BufTy).Contents (Elt Ideal))

/-! ## The values both sides are made of, each named at the type of extended reals -/

/-- The linear transform of node `v`'s features at feature `q`. -/
def lin (v : Fin 100000) (q : Fin 64) : EReal := val_main_v0 (F := Ideal) x w (ix2 v q)
/-- The source of edge `e`: its (wrapped) list entry, clamped into the table. -/
def src (e : Fin 1100000) : Fin 100000 := clampNode (val_main_v37 (F := Ideal) ei (entry e))
/-- The bias at feature `r`. -/
def bias (r : Fin 64) : EReal := b (ix1 r)
/-- The zero both accumulations start from. -/
def zero (n : Fin 100000) (r : Fin 64) : EReal := val_main_v41 (F := Ideal) (ix2 n r)

/-- The reference's edge row entry, its weight, its bias term and its clamp. -/
def refEdge : Cert.Edges.EdgeRows.Idx → EReal := val_main_v40 (F := Ideal) x ei w
def refWeight (e : Fin 1100000) (q : Fin 64) : EReal := val_main_v39 (F := Ideal) ei (ix2 e q)
def refMsg (e : Fin 1100000) (q : Fin 64) : EReal := val_main_v38 (F := Ideal) x ei w (ix2 e q)
def refBias (n : Fin 100000) (r : Fin 64) : EReal := val_main_v45 (F := Ideal) b (ix2 n r)
def refClamp (n : Fin 100000) (r : Fin 64) : EReal := val_main_call1_v0 (F := Ideal) (ix2 n r)

/-- The kernel's edge row entry, its normaliser factor and its bias term. -/
def kerEdge : Cert.Edges.EdgeRows.Idx → EReal :=
  Host.gather (α := EReal) Cert.ReferenceIdeal.gather_S100000x64_S1100000x1_S1100000x64_1_0_n_n_0_1_164
    (linearScale (n := 100000) x w (normCol ei)) (val_main_v37 (F := Ideal) ei)
def kerNorm (n : Fin 100000) (r : Fin 64) : EReal := normCol ei (colOf (n := 100000) (k := 64) (ix2 n r))
def kerBias (n : Fin 100000) (r : Fin 64) : EReal := biasRow b (rowOf (n := 100000) (k := 64) (ix2 n r))

/-! ## Each of them, read -/

/-- An `[a]` array cast to `[a, 1]` reads, at `(i, u)`, the operand at `i`. -/
theorem shapeCast_a_a1_apply {α : Type} {a : ℕ} (v : (⟨1, ![a]⟩ : Shape).Idx → α)
    (h : (⟨1, ![a]⟩ : Shape).ShapeCasts ⟨2, ![a, 1]⟩) (i : Fin a) (u : Fin 1) :
    shapeCast ⟨2, ![a, 1]⟩ v h (ix2 i u) = v (ix1 i) :=
  shapeCast_apply v h _ _ (by
    have hu : u.val = 0 := by omega
    rw [Shape.rowMajor_val_two, Shape.rowMajor_val_one]
    show i.val = i.val * 1 + u.val
    rw [hu, Nat.mul_one, Nat.add_zero])

theorem colOf_ix2 (v : Fin 100000) (q : Fin 64) : colOf (n := 100000) (k := 64) (ix2 v q) = ix2 v (0 : Fin 1) :=
  funext fun a => Fin.ext (by match a with | ⟨0, _⟩ => rfl | ⟨1, _⟩ => rfl)
theorem rowOf_ix2 (v : Fin 100000) (q : Fin 64) : rowOf (n := 100000) (k := 64) (ix2 v q) = ix2 (0 : Fin 1) q :=
  funext fun a => Fin.ext (by match a with | ⟨0, _⟩ => rfl | ⟨1, _⟩ => rfl)

/-- The kernel's normaliser column at node `v`'s row is the normaliser at `v`. -/
theorem kerNorm_eq (v : Fin 100000) (q : Fin 64) : kerNorm ei v q = nrm ei v := by
  unfold kerNorm nrm normCol
  rw [colOf_ix2]
  exact shapeCast_a_a1_apply _ _ v 0

/-- The kernel's bias row at feature `r` is the bias at `r`; so is the reference's broadcast bias. -/
theorem kerBias_eq (v : Fin 100000) (r : Fin 64) : kerBias b v r = bias b r := by
  unfold kerBias bias biasRow
  rw [rowOf_ix2]
  exact shapeCast_a_1a_apply _ _ 0 r
theorem refBias_eq (v : Fin 100000) (r : Fin 64) : refBias b v r = bias b r := by
  unfold refBias bias
  rw [val_main_v45_apply, val_main_v44_apply]
  exact congrArg b (funext fun a => Fin.ext (by match a with | ⟨0, _⟩ => rfl))

theorem zero_eq (n : Fin 100000) (r : Fin 64) : zero n r = 0 := by
  unfold zero
  rw [val_main_v41_apply, val_main_cst_8_apply]
  exact Ideal.ofBits_zero_f32
theorem refClamp_eq (n : Fin 100000) (r : Fin 64) : refClamp n r = Ideal.ofBits .f32 0x00000000#32 := by
  unfold refClamp
  rw [val_main_call1_v0_apply, val_main_call1_cst_apply]
  rfl

/-- The reference's message of an edge row: the linear transform at the edge's source. -/
theorem refMsg_eq (e : Fin 1100000) (q : Fin 64) : refMsg x ei w e q = lin x w (src ei e) q :=
  Cert.Edges.gatherRows_apply (val_main_v0 (F := Ideal) x w) (val_main_v37 (F := Ideal) ei) e q

/-- The reference's weight of an edge row landing on node `n`: the source's normaliser times `n`'s. -/
theorem refWeight_eq (e : Fin 1100000) (q : Fin 64) (n : Fin 100000) (r : Fin 64)
    (hl : Cert.Edges.scatterRows.resultIdx? (ix2 e q) (val_main_v42 (F := Ideal) ei) = some (ix2 n r)) :
    refWeight ei e q = nrm ei (src ei e) * nrm ei n := by
  have hi : idx_main_v31 (idx_main_v39 (ix2 e q)) = ix1 e :=
    funext fun a => Fin.ext (by match a with | ⟨0, _⟩ => rfl)
  have h22 : val_main_v22 (F := Ideal) ei (ix1 e) = nrm ei (clampNode (val_main_v21 (F := Ideal) ei (entry e))) :=
    Cert.Edges.gatherScalars_apply (val_main_v15 (F := Ideal) ei) (val_main_v21 (F := Ideal) ei) e
  have h29 : val_main_v29 (F := Ideal) ei (ix1 e) = nrm ei (clampNode (val_main_v28 (F := Ideal) ei (entry e))) :=
    Cert.Edges.gatherScalars_apply (val_main_v15 (F := Ideal) ei) (val_main_v28 (F := Ideal) ei) e
  have ht := Cert.ReferenceIdeal.Stages.target_node ei e n (Cert.Edges.scatterRows_lands _ e q n r hl)
  unfold refWeight
  rw [val_main_v39_apply, val_main_v31_apply, hi, val_main_v30_apply, Ideal.mulf_def, h22, h29, ht,
    Cert.ReferenceIdeal.Stages.sources_eq]
  rfl

/-- The reference's edge row entry landing on `n`. -/
theorem refEdge_eq (e : Fin 1100000) (q : Fin 64) (n : Fin 100000) (r : Fin 64)
    (hl : Cert.Edges.scatterRows.resultIdx? (ix2 e q) (val_main_v42 (F := Ideal) ei) = some (ix2 n r)) :
    refEdge x ei w (ix2 e q) = (nrm ei (src ei e) * nrm ei n) * lin x w (src ei e) q := by
  have h1 : refEdge x ei w (ix2 e q) = refWeight ei e q * refMsg x ei w e q := by
    unfold refEdge refWeight refMsg
    rw [val_main_v40_apply, Ideal.mulf_def]
  rw [h1, refWeight_eq ei e q n r hl, refMsg_eq]

/-- The operand indices of the linear transform's sum, as this proof builds them and as the reference's read lemma
    names them: the same functions. -/
theorem inRow_eq : (inRow (n := 100000) : Cert.Edges.NodeRows.Idx → Fin 64 → Cert.Edges.NodeRows.Idx) = lidx_main_v0 :=
  funext fun i => funext fun k => funext fun a => Fin.ext (by match a with | ⟨0, _⟩ => rfl | ⟨1, _⟩ => rfl)
theorem inCol_eq : (inCol (n := 100000) : Cert.Edges.NodeRows.Idx → Fin 64 → (⟨2, ![64, 64]⟩ : Shape).Idx) = ridx_main_v0 :=
  funext fun i => funext fun k => funext fun a => Fin.ext (by match a with | ⟨0, _⟩ => rfl | ⟨1, _⟩ => rfl)

/-- The kernel's edge row entry: the linear transform at the edge's source times the source's normaliser. -/
theorem kerEdge_eq (e : Fin 1100000) (q : Fin 64) :
    kerEdge x ei w (ix2 e q) = lin x w (src ei e) q * nrm ei (src ei e) := by
  have h1 : kerEdge x ei w (ix2 e q) = linearScale (n := 100000) x w (normCol ei) (ix2 (src ei e) q) :=
    Cert.Edges.gatherRows_apply (linearScale (n := 100000) x w (normCol ei)) (val_main_v37 (F := Ideal) ei) e q
  have h2 : linearScale (n := 100000) x w (normCol ei) (ix2 (src ei e) q)
      = lin x w (src ei e) q * kerNorm ei (src ei e) q := by
    unfold lin kerNorm linearScale
    rw [val_main_v0_apply, inRow_eq, inCol_eq]
  rw [h1, h2, kerNorm_eq]

/-! ## The core, for any set of edge rows that land on `(n, r)` -/

theorem core (n : Fin 100000) (r : Fin 64) (S : Finset Cert.Edges.EdgeRows.Idx)
    (hS : ∀ j ∈ S, Cert.Edges.scatterRows.resultIdx? j (val_main_v42 (F := Ideal) ei) = some (ix2 n r)) :
    max ((zero n r + ∑ j ∈ S, refEdge x ei w j) + refBias b n r) (refClamp n r)
    = max ((zero n r + ∑ j ∈ S, kerEdge x ei w j) * kerNorm ei n r + kerBias b n r) (Ideal.ofBits .f32 0x00000000#32) := by
  obtain ⟨h0, ht⟩ := Cert.ReferenceIdeal.Stages.nrm_range ei n
  rw [refClamp_eq, refBias_eq, kerBias_eq, kerNorm_eq]
  have hR : ∑ j ∈ S, refEdge x ei w j
      = ∑ j ∈ S, (nrm ei (src ei ⟨(j 0).val, (j 0).isLt⟩) * nrm ei n) * lin x w (src ei ⟨(j 0).val, (j 0).isLt⟩) ⟨(j 1).val, (j 1).isLt⟩ :=
    Finset.sum_congr rfl fun j hj => by
      obtain ⟨e, q, rfl⟩ : ∃ (e : Fin 1100000) (q : Fin 64), j = ix2 e q := ⟨j 0, j 1, eq_ix2 j⟩
      exact refEdge_eq x ei w e q n r (hS _ hj)
  have hK : ∑ j ∈ S, kerEdge x ei w j
      = ∑ j ∈ S, lin x w (src ei ⟨(j 0).val, (j 0).isLt⟩) ⟨(j 1).val, (j 1).isLt⟩ * nrm ei (src ei ⟨(j 0).val, (j 0).isLt⟩) :=
    Finset.sum_congr rfl fun j hj => by
      obtain ⟨e, q, rfl⟩ : ∃ (e : Fin 1100000) (q : Fin 64), j = ix2 e q := ⟨j 0, j 1, eq_ix2 j⟩
      exact kerEdge_eq x ei w e q
  rw [hR, hK]
  exact (Cert.Law.aggregate S (fun j => lin x w (src ei ⟨(j 0).val, (j 0).isLt⟩) ⟨(j 1).val, (j 1).isLt⟩)
    (fun j => nrm ei (src ei ⟨(j 0).val, (j 0).isLt⟩)) (bias b r) (zero n r) (Ideal.ofBits .f32 0x00000000#32)
    (zero_eq n r) h0 ht).symm

end Cert.Bridge

end
-- ==== Proof.Bridge.lean ====
/-
  The last step: each program's entry `(n, r)` opened to the sum over the edge rows that land there — the scatter-add on
  the extended reals IS the start value plus that sum — and the core equation applied to that set.
-/
import proofs.«133588_j12635793785115_2_alg».proof.Proof.BridgeCore

noncomputable section

namespace Cert.Bridge

open Idealize.ShloMosaic Idealize.ShloMosaic.ValueIdx
open Cert.ReferenceIdeal.ReadP
open Cert.ReferenceIdeal.Stages (nrm)
open Cert.Edges (clampNode entry)
open Cert.KernelIdeal.Value (result aggregated normCol biasRow)
open Cert.KernelIdeal.Epilogue (scaleBiasClamp colOf rowOf)
open Cert.KernelIdeal.Linear (linearScale inRow inCol)

variable (x : (⟨Cert.ReferenceIdeal.S100000x64, .f32⟩ : BufTy).Contents (Elt Ideal))
  (ei : (⟨Cert.ReferenceIdeal.S2x1000000, .i32⟩ : BufTy).Contents (Elt Ideal))
  (w : (⟨Cert.ReferenceIdeal.S64x64, .f32⟩ : BufTy).Contents (Elt Ideal))
  (b : (⟨Cert.ReferenceIdeal.S64, .f32⟩ : BufTy).Contents (Elt Ideal))

/-! ## The two results, opened to the sum over the edge rows that land on `(n, r)` -/

/-- The edge rows whose target entry, read signed, is node `n` and whose column is `r`: those the scatter adds into
    entry `(n, r)`. -/
def landing (n : Fin 100000) (r : Fin 64) : Finset Cert.Edges.EdgeRows.Idx :=
  Finset.univ.filter fun j =>
    Cert.ReferenceIdeal.scatter_S100000x64_S1100000x1_S1100000x64_1_0_0_1.resultIdx? j (val_main_v42 (F := Ideal) ei) = some (ix2 n r)

theorem landing_def (n : Fin 100000) (r : Fin 64) :
    landing ei n r = Finset.univ.filter fun j =>
      Cert.ReferenceIdeal.scatter_S100000x64_S1100000x1_S1100000x64_1_0_0_1.resultIdx? j (val_main_v42 (F := Ideal) ei) = some (ix2 n r) :=
  rfl

theorem landing_lands (n : Fin 100000) (r : Fin 64) (j : Cert.Edges.EdgeRows.Idx) (hj : j ∈ landing ei n r) :
    Cert.Edges.scatterRows.resultIdx? j (val_main_v42 (F := Ideal) ei) = some (ix2 n r) :=
  (Finset.mem_filter.mp hj).2

/-- A float scatter-add on the extended reals, read at an index: the start value there plus the sum of the updates
    that land there (over arbitrary operands: nothing is evaluated). -/
theorem scatterAdd_apply {s si su : Shape} (d : ScatterDims s si su) {wd : Nat} (x0 : s.Idx → EReal) (idx : IVec si wd)
    (upd : su.Idx → EReal) (i : s.Idx) :
    Host.scatterAdd (F := Ideal) (φ := .f32) d x0 idx upd i
      = x0 i + ∑ j ∈ Finset.univ.filter (fun j => d.resultIdx? j idx = some i), upd j := rfl

/-- The reference's entry `(n, r)`. -/
theorem ref_at (n : Fin 100000) (r : Fin 64) :
    val_main_v47 (F := Ideal) x ei w b (ix2 n r)
      = max ((zero n r + ∑ j ∈ landing ei n r, refEdge x ei w j) + refBias b n r) (refClamp n r) := by
  rw [val_main_v47_apply, val_main_v46_apply, Ideal.maximumf_def, Ideal.addf_def]
  unfold val_main_v43
  rw [scatterAdd_apply]
  unfold zero refEdge refBias refClamp
  rw [landing_def]

/-- The kernel's entry `(n, r)`. -/
theorem ker_at (n : Fin 100000) (r : Fin 64) :
    result x ei w b (ix2 n r)
      = max ((zero n r + ∑ j ∈ landing ei n r, kerEdge x ei w j) * kerNorm ei n r + kerBias b n r)
          (Ideal.ofBits .f32 0x00000000#32) := by
  unfold result scaleBiasClamp aggregated
  rw [scatterAdd_apply]
  unfold zero kerEdge kerNorm kerBias
  rw [landing_def]

/-- THE RESULTS ARE EQUAL, index by index. -/
theorem result_eq : val_main_v47 (F := Ideal) x ei w b = result x ei w b := by
  funext i
  obtain ⟨n, r, rfl⟩ : ∃ (n : Fin 100000) (r : Fin 64), i = ix2 n r := ⟨i 0, i 1, eq_ix2 i⟩
  rw [ref_at, ker_at]
  exact core x ei w b n r (landing ei n r) (landing_lands ei n r)

end Cert.Bridge

end
-- ==== Proof.lean ====
/-
  Graph convolution with symmetric normalisation: a kernel that scales on the source side inside the linear transform
  and on the target side after the aggregation, against a reference that scales every message by both normalisers.

  With `h = x · W`, `row` / `col` the source / target lists (the given edges, then one self-loop per node), `deg` the
  in-degree and `nrm v = rsqrt (deg v)` where `deg v > 0`, `0` elsewhere:
    reference  out[n, r] = max (∑_{e : col e = n} (nrm (row e) · nrm n) · h[row e, r] + b r, 0)
    kernel     out[n, r] = max ((∑_{e : col e = n} h[row e, r] · nrm (row e)) · nrm n + b r, 0)
  equal on the extended reals because `nrm n` is a nonnegative FINITE number, and such a factor goes through any sum
  (Proof/Law.lean); no input needs to be finite. The kernel's two narrowings to bf16 are the identity on the extended reals and
  its matrix unit's product is the plain sum, so its first region holds `h[v, r] · nrm v` (Proof/Region0.lean), its
  second `max (agg[n, r] · nrm n + b r, 0)` (Proof/Region1.lean); between them the host gathers and scatter-adds exactly
  as the reference does (Proof/HostState.lean, Proof/Edges.lean). The edge lists, the degree and the normaliser are built by
  the same operations in both programs and are carried as the same closed terms throughout (Proof/Bridge.lean).

  The claims: the three frames (the two kernels' are the generated frame certificates; the reference's is its run with
  the result dropped), `preserves` (no operation of the module was rewritten: `True`), and `algebraic`.
-/
import proofs.«133588_j12635793785115_2_alg».proof.Defs
import proofs.«133588_j12635793785115_2_alg».proof.Proof.Gen.Kernel
import proofs.«133588_j12635793785115_2_alg».proof.Proof.Gen.Kernel.Skeleton
import proofs.«133588_j12635793785115_2_alg».proof.Proof.Gen.Kernel.Launch
import proofs.«133588_j12635793785115_2_alg».proof.Proof.Gen.Kernel.Points
import proofs.«133588_j12635793785115_2_alg».proof.Proof.Gen.Kernel.Frame
import proofs.«133588_j12635793785115_2_alg».proof.Proof.Gen.KernelIdeal
import proofs.«133588_j12635793785115_2_alg».proof.Proof.Gen.KernelIdeal.Skeleton
import proofs.«133588_j12635793785115_2_alg».proof.Proof.Gen.KernelIdeal.Launch
import proofs.«133588_j12635793785115_2_alg».proof.Proof.Gen.KernelIdeal.Points
import proofs.«133588_j12635793785115_2_alg».proof.Proof.Gen.KernelIdeal.Frame
import proofs.«133588_j12635793785115_2_alg».proof.Proof.Gen.ReferenceIdeal
import proofs.«133588_j12635793785115_2_alg».proof.Proof.Gen.Pre_finite_inputs
import proofs.«133588_j12635793785115_2_alg».proof.Proof.RefRun
import proofs.«133588_j12635793785115_2_alg».proof.Proof.RefRead
import proofs.«133588_j12635793785115_2_alg».proof.Proof.ResultRun
import proofs.«133588_j12635793785115_2_alg».proof.Proof.HostState
import proofs.«133588_j12635793785115_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs end with the same function of the arguments at the result: the kernel's run read at its result
    (the fold of its segments, evaluated), the reference's run read stage by stage, and the two functions equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Value.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.HostState.result_6 m ρ c), (h c).2⟩)
      (Cert.KernelIdeal.ResultRun.run_result m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v47_eq, (hagree c).1, (hagree c).2.1, (hagree c).2.2.1, (hagree c).2.2.2]
    exact Cert.Bridge.result_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
